-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S10000x128 : Shape := ⟨2, ![10000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 64
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S100000x128, .bf16⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .i1⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S1600000x1, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .bf16⟩
  | .hbm, ⟨54, _⟩ => ⟨S1600000x128, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S10000x128_S128x128_S10000x128_1_0_0_1_n_n_wf : DotDims.WF S10000x128 S128x128 S10000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S100000, .i1⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S1600000x1, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibFiniteEntry.lean ====
/-
  General facts about the printed test "every entry of a float array has absolute value below +∞", read at the ideal
  values, where a float is an extended real.

  * The f32 pattern 0x7F800000 denotes +∞.
  * An extended real whose absolute value max(x, -x) is below +∞ is neither infinity, hence a real number.
  * A strict comparison of extended reals that came out true is the strict inequality.
  * So one entry of the printed test `|a| < +∞` (the array's absolute value compared, entry by entry, with the
    broadcast +∞ pattern) that came out true says that entry of `a` is a real number — at any shape.
-/
import Idealize.ShloMosaic.PureOps.Ideal.Laws
import Idealize.ShloMosaic.Lib.ValueIdx

noncomputable section

namespace Cert.LibFiniteEntry

open Idealize.ShloMosaic

/-- The f32 pattern of +∞ denotes +∞. -/
theorem ofBits_inf_f32 : Ideal.ofBits .f32 0x7F800000#32 = ⊤ := by
  simp [Ideal.ofBits, Ideal.ieee]

/-- An extended real whose absolute value is below +∞ is a real. -/
theorem real_of_abs_lt_top (x : EReal) (h : max x (-x) < ⊤) : ∃ r : ℝ, x = (r : EReal) := by
  have hb : x ≠ ⊥ := by
    rintro rfl
    rw [EReal.neg_bot, max_eq_right bot_le] at h
    exact lt_irrefl _ h
  have ht : x ≠ ⊤ := by
    rintro rfl
    rw [EReal.neg_top, max_eq_left bot_le] at h
    exact lt_irrefl _ h
  exact ⟨x.toReal, (EReal.coe_toReal ht hb).symm⟩

/-- A strict comparison of extended reals that came out true. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- One entry of the printed test `|a| < +∞` that came out true: that entry of `a` is a real. -/
theorem real_of_finite_test {s : Shape} (a : FVec Ideal s .f32) (hb : (⟨0, ![]⟩ : Shape).BroadcastsInDim s ![]) (j : s.Idx)
    (h : cmpf .olt (Host.absf a) (broadcastInDim s ![] hb (constant (F := Ideal) ⟨0, ![]⟩ .f32 0x7F800000#32)) j = 1#1) :
    ∃ r : ℝ, a j = (r : EReal) := by
  have hlt : max (a j) (-(a j)) < Ideal.ofBits .f32 0x7F800000#32 := lt_of_cmp_olt h
  rw [ofBits_inf_f32] at hlt
  exact real_of_abs_lt_top _ hlt

end Cert.LibFiniteEntry

end
-- ==== Proof.RealSums.lean ====
/-
  Real-valued families of extended reals, and the one algebraic law of this certificate.

  On the extended reals multiplication does not distribute over addition at the infinities, so a weight can be moved
  through an inner product only when everything in sight is a real number. This file collects the closure facts
  (a sum, a product, a power of reals is a real; a finite sum of reals is a real) and proves the law itself:
  for real weights `w e`, real rows `x e k` and a real column `W k`,

      ∑ e ∈ s, w e · (∑ k, x e k · W k)  =  ∑ k, (∑ e ∈ s, w e · x e k) · W k ,

  the weighted sum of inner products is the inner product of the weighted sum of rows.
-/
import Idealize.ShloMosaic.PureOps.Ideal

noncomputable section

open scoped BigOperators

namespace Cert.RealSums

/-- An extended real that is a real number. -/
def IsReal (x : EReal) : Prop := ∃ r : ℝ, x = (r : EReal)

theorem isReal_coe (r : ℝ) : IsReal (r : EReal) := ⟨r, rfl⟩
theorem isReal_zero : IsReal (0 : EReal) := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A real base to a real exponent is a real (the exact power is Mathlib's real power there). -/
theorem IsReal.pow {x y : EReal} (hx : IsReal x) (hy : IsReal y) : IsReal (Idealize.ShloMosaic.Ideal.pow x y) := by
  obtain ⟨a, rfl⟩ := hx; obtain ⟨b, rfl⟩ := hy
  exact ⟨Real.rpow a b, rfl⟩

/-- The coercion commutes with finite sums. -/
theorem coe_sum {ι : Type*} (s : Finset ι) (f : ι → ℝ) : ∑ e ∈ s, (f e : EReal) = ((∑ e ∈ s, f e : ℝ) : EReal) := by
  classical
  induction s using Finset.induction_on with
  | empty => simp
  | insert a s ha ih => rw [Finset.sum_insert ha, Finset.sum_insert ha, ih, EReal.coe_add]

/-- A finite sum of reals is a real. -/
theorem isReal_sum {ι : Type*} (s : Finset ι) (f : ι → EReal) (h : ∀ e ∈ s, IsReal (f e)) : IsReal (∑ e ∈ s, f e) := by
  classical
  induction s using Finset.induction_on with
  | empty => simpa using isReal_zero
  | insert a s ha ih =>
    rw [Finset.sum_insert ha]
    exact (h a (Finset.mem_insert_self a s)).add (ih fun e he => h e (Finset.mem_insert_of_mem he))

/-- THE LAW. With every weight, every row entry and every column entry a real number, the weighted sum over the edges
    of the rows' inner products with the column is the inner product of the weighted sum of the rows with the column. -/
theorem weighted_inner_comm {ι κ : Type*} [Fintype κ] (s : Finset ι) (w : ι → EReal) (x : ι → κ → EReal) (W : κ → EReal)
    (hw : ∀ e, IsReal (w e)) (hx : ∀ e k, IsReal (x e k)) (hW : ∀ k, IsReal (W k)) :
    ∑ e ∈ s, w e * ∑ k, x e k * W k = ∑ k, (∑ e ∈ s, w e * x e k) * W k := by
  choose w' hw' using hw
  choose x' hx' using hx
  choose W' hW' using hW
  simp only [hw', hx', hW', ← EReal.coe_mul, coe_sum]
  refine congrArg _ ?_
  simp only [Finset.mul_sum, Finset.sum_mul]
  rw [Finset.sum_comm]
  refine Finset.sum_congr rfl fun k _ => Finset.sum_congr rfl fun e _ => ?_
  ring

end Cert.RealSums

end
-- ==== Proof.FiniteInputs.lean ====
/-
  What the precondition says: every entry of the node table, of the adjacency values and of the weight matrix is a real
  number.

  The precondition is the conjunction of four tests "every entry of a float input has absolute value below +∞", each a
  reduction by `and` of entrywise comparisons. A conjunction that is 1 has every conjunct 1, a reduction by `and` that
  is 1 met only 1s, and an entry whose absolute value is below +∞ is neither infinity.
-/
import proofs.«131494_j36275293782355_2_alg».proof.Pre_finite_inputs
import proofs.«131494_j36275293782355_2_alg».proof.Proof.LibFiniteEntry
import proofs.«131494_j36275293782355_2_alg».proof.Proof.RealSums
import Idealize.ShloMosaic.Lib.ReduceAll
import Idealize.ShloMosaic.Lib.ValueIdx

noncomputable section

namespace Cert.Pre_finite_inputs.Finite

open Cert.Pre_finite_inputs Cert.Pre_finite_inputs.Facts Idealize.ShloMosaic Cert.RealSums

variable [Facts]

instance : Subsingleton S_.Idx := ⟨fun a b => funext fun d => d.elim0⟩

/-- Under the precondition the node table, the adjacency values and the weight matrix hold real numbers only. -/
theorem reals_of_pre (a0 : FVec Ideal S100000x128 .f32) (a1 a2 : IVec S1600000 32) (a3 : FVec Ideal S1600000 .f32)
    (a4 : FVec Ideal S128x128 .f32) (a5 : FVec Ideal S128 .f32)
    (h : fn (F := Ideal) a0 a1 a2 a3 a4 a5 = fun _ => 1#1) :
    (∀ i, IsReal (a0 i)) ∧ (∀ i, IsReal (a3 i)) ∧ (∀ i, IsReal (a4 i)) := by
  have h0 := congrFun h ValueIdx.ix0
  dsimp only [fn, fn_part1] at h0
  unfold andi at h0
  rw [IntOp.andi_eq_one, IntOp.andi_eq_one, IntOp.andi_eq_one] at h0
  obtain ⟨⟨⟨p0, p3⟩, p4⟩, -⟩ := h0
  refine ⟨fun i => ?_, fun i => ?_, fun i => ?_⟩
  · exact Cert.LibFiniteEntry.real_of_finite_test a0 _ i (Host.reduce_andi_all _ _ _ _ _ p0 i)
  · exact Cert.LibFiniteEntry.real_of_finite_test a3 _ i (Host.reduce_andi_all _ _ _ _ _ p3 i)
  · exact Cert.LibFiniteEntry.real_of_finite_test a4 _ i (Host.reduce_andi_all _ _ _ _ _ p4 i)

end Cert.Pre_finite_inputs.Finite

end
-- ==== Proof.LibSegmentSum.lean ====
/-
  A float scatter-add whose scatter indices name ROWS, read at an index.

  `jax.ops.segment_sum(data, ids, num_segments = N)` lowers to a `stablehlo.scatter` with an `add` body over
  scatter indices of shape `[E, 1]`: update row `e` is added to operand row `ids[e]`, read signed, and is dropped
  when that row is outside `[0, N)`. Two layouts occur: updates `[E, D]` into an operand `[N, D]` (a row of `D`
  entries per update: the window axis is axis 1) and updates `[E]` into an operand `[N]` (one entry per update, no
  window axis). At the exact instance both are, entry by entry, the operand plus the sum of the updates over the SAME
  set of edges `{e | ids[e] = n}` (`rows_apply`, `entries_apply`), so a segment sum of differences `g e k - w e`
  with every `w e` real is the difference of the two segment sums (`sum_sub_coe`): on the extended reals the
  subtraction of a REAL distributes over a finite sum, which it does not for infinite `w`.
-/
import Idealize.ShloMosaic.PureOps.Ideal
import Idealize.ShloMosaic.Lib.ValueIdx

noncomputable section

open scoped BigOperators

namespace Cert.SegmentSum

open Idealize.ShloMosaic Idealize.ShloMosaic.ValueIdx

/-! ## The two layouts' dimension numbers -/

/-- Updates `[E, D]` into an operand `[N, D]`, one scatter index per update row. -/
abbrev rowsDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Updates `[E]` into an operand `[N]`, one scatter index per update entry. -/
abbrev entriesDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The segment edge `e` is sent to: its scatter index, read signed. -/
def seg {E w : Nat} (idx : IVec ⟨2, ![E, 1]⟩ w) (e : Fin E) : Int := (idx (ix2 e (0 : Fin 1))).toInt

section Rows
variable {N E D w : Nat} (wf : ScatterDims.WF ⟨2, ![N, D]⟩ ⟨2, ![E, 1]⟩ ⟨2, ![E, D]⟩ [1] [0] [0] 1)
variable (idx : IVec ⟨2, ![E, 1]⟩ w) (e : Fin E) (q : Fin D)

theorem rows_start0 : (rowsDims N E D wf).start (ix2 e q) idx 0 = seg idx e := by
  unfold ScatterDims.start
  rw [dif_pos (show (0 : Fin 2) ∈ (rowsDims N E D wf).scatterDimsToOperandDims from List.mem_singleton.mpr rfl)]
  have hsi : (rowsDims N E D wf).siIdx (ix2 e q) ⟨List.idxOf (0 : Fin 2) (rowsDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_start1 : (rowsDims N E D wf).start (ix2 e q) idx 1 = 0 := by
  unfold ScatterDims.start
  rw [dif_neg (show ¬ (1 : Fin 2) ∈ (rowsDims N E D wf).scatterDimsToOperandDims by
    show ¬ (1 : Fin 2) ∈ [(0 : Fin 2)]; decide)]

theorem rows_window0 : (rowsDims N E D wf).window (ix2 e q) 0 = 0 := by
  unfold ScatterDims.window
  rw [dif_neg (show ¬ (0 : Fin 2) ∈ (rowsDims N E D wf).sKept by
    show ¬ (0 : Fin 2) ∈ (List.finRange 2).filter (fun a => a ∉ [(0 : Fin 2)]); decide)]

theorem rows_window1 : (rowsDims N E D wf).window (ix2 e q) 1 = q.val := by
  unfold ScatterDims.window
  rw [dif_pos (show (1 : Fin 2) ∈ (rowsDims N E D wf).sKept by
    show (1 : Fin 2) ∈ (List.finRange 2).filter (fun a => a ∉ [(0 : Fin 2)]); decide)]
  rfl

/-- Update entry `(e, q)` lands on operand entry `(n, k)` exactly when edge `e`'s segment is `n` and `q = k`. -/
theorem rows_resultIdx_iff (n : Fin N) (k : Fin D) :
    (rowsDims N E D wf).resultIdx? (ix2 e q) idx = some (ix2 n k) ↔ seg idx e = (n.val : Int) ∧ q = k := by
  have s0 := rows_start0 wf idx e q
  have s1 := rows_start1 wf idx e q
  have w0 := rows_window0 wf e q
  have w1 := rows_window1 wf e q
  unfold ScatterDims.resultIdx?
  split_ifs with h
  · rw [Option.some.injEq]
    constructor
    · intro h'
      have h0 := congrArg Fin.val (congrFun h' 0)
      have h1 := congrArg Fin.val (congrFun h' 1)
      have p0 := (h 0).1
      simp only [s0, w0] at h0 p0
      simp only [s1, w1] at h1
      refine ⟨?_, Fin.ext ?_⟩
      · have : ((seg idx e + ((0 : Nat) : Int)).toNat : Nat) = n.val := h0
        omega
      · have : (((0 : Int) + (q.val : Int)).toNat : Nat) = k.val := h1
        omega
    · rintro ⟨hs, rfl⟩
      funext a; refine Fin.ext ?_
      match a with
      | ⟨0, _⟩ =>
        show ((rowsDims N E D wf).start (ix2 e q) idx 0 + ((rowsDims N E D wf).window (ix2 e q) 0 : Int)).toNat = n.val
        rw [s0, w0, hs]; omega
      | ⟨1, _⟩ =>
        show ((rowsDims N E D wf).start (ix2 e q) idx 1 + ((rowsDims N E D wf).window (ix2 e q) 1 : Int)).toNat = q.val
        rw [s1, w1]; omega
  · constructor
    · intro h'; exact absurd h' (by simp)
    · rintro ⟨hs, rfl⟩
      exfalso; apply h
      intro a
      match a with
      | ⟨0, _⟩ =>
        show 0 ≤ (rowsDims N E D wf).start (ix2 e q) idx 0 + ((rowsDims N E D wf).window (ix2 e q) 0 : Int) ∧
          (rowsDims N E D wf).start (ix2 e q) idx 0 + ((rowsDims N E D wf).window (ix2 e q) 0 : Int) < (N : Int)
        rw [s0, w0, hs]; have := n.isLt; omega
      | ⟨1, _⟩ =>
        show 0 ≤ (rowsDims N E D wf).start (ix2 e q) idx 1 + ((rowsDims N E D wf).window (ix2 e q) 1 : Int) ∧
          (rowsDims N E D wf).start (ix2 e q) idx 1 + ((rowsDims N E D wf).window (ix2 e q) 1 : Int) < (D : Int)
        rw [s1, w1]; have := q.isLt; omega

end Rows

section Entries
variable {N E w : Nat} (wf : ScatterDims.WF ⟨1, ![N]⟩ ⟨2, ![E, 1]⟩ ⟨1, ![E]⟩ [] [0] [0] 1)
variable (idx : IVec ⟨2, ![E, 1]⟩ w) (e : Fin E)

theorem entries_start0 : (entriesDims N E wf).start (ix1 e) idx 0 = seg idx e := by
  unfold ScatterDims.start
  rw [dif_pos (show (0 : Fin 1) ∈ (entriesDims N E wf).scatterDimsToOperandDims from List.mem_singleton.mpr rfl)]
  have hsi : (entriesDims N E wf).siIdx (ix1 e) ⟨List.idxOf (0 : Fin 1) (entriesDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem entries_window0 : (entriesDims N E wf).window (ix1 e) 0 = 0 := by
  unfold ScatterDims.window
  rw [dif_neg (show ¬ (0 : Fin 1) ∈ (entriesDims N E wf).sKept by
    show ¬ (0 : Fin 1) ∈ (List.finRange 1).filter (fun a => a ∉ [(0 : Fin 1)]); decide)]

/-- Update entry `e` lands on operand entry `n` exactly when edge `e`'s segment is `n`. -/
theorem entries_resultIdx_iff (n : Fin N) :
    (entriesDims N E wf).resultIdx? (ix1 e) idx = some (ix1 n) ↔ seg idx e = (n.val : Int) := by
  have s0 := entries_start0 wf idx e
  have w0 := entries_window0 wf e
  unfold ScatterDims.resultIdx?
  split_ifs with h
  · rw [Option.some.injEq]
    constructor
    · intro h'
      have h0 := congrArg Fin.val (congrFun h' 0)
      have p0 := (h 0).1
      simp only [s0, w0] at h0 p0
      have : ((seg idx e + ((0 : Nat) : Int)).toNat : Nat) = n.val := h0
      omega
    · intro hs
      funext a; refine Fin.ext ?_
      match a with
      | ⟨0, _⟩ =>
        show ((entriesDims N E wf).start (ix1 e) idx 0 + ((entriesDims N E wf).window (ix1 e) 0 : Int)).toNat = n.val
        rw [s0, w0, hs]; omega
  · constructor
    · intro h'; exact absurd h' (by simp)
    · intro hs
      exfalso; apply h
      intro a
      match a with
      | ⟨0, _⟩ =>
        show 0 ≤ (entriesDims N E wf).start (ix1 e) idx 0 + ((entriesDims N E wf).window (ix1 e) 0 : Int) ∧
          (entriesDims N E wf).start (ix1 e) idx 0 + ((entriesDims N E wf).window (ix1 e) 0 : Int) < (N : Int)
        rw [s0, w0, hs]; have := n.isLt; omega

end Entries

/-! ## The exact scatter-add at an entry -/

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE ROWS LAYOUT AT `(n, k)`: the operand's entry plus the sum, over the edges whose segment is `n`, of column
    `k` of their update rows. -/
theorem rows_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (n : Fin N) (k : Fin D) :
    Ideal.hostScatterAdd (rowsDims N E D wf) x idx upd (ix2 n k)
      = x (ix2 n k) + ∑ e ∈ Finset.univ.filter (fun e : Fin E => seg idx e = (n.val : Int)), upd (ix2 e k) := by
  unfold Ideal.hostScatterAdd
  congr 1
  rw [Finset.sum_filter, Finset.sum_filter, sum_idx2]
  refine Finset.sum_congr rfl fun e _ => ?_
  by_cases hs : seg idx e = (n.val : Int)
  · rw [if_pos hs, Finset.sum_eq_single k]
    · rw [if_pos ((rows_resultIdx_iff wf idx e k n k).2 ⟨hs, rfl⟩)]
    · intro q _ hq
      rw [if_neg (fun h => hq ((rows_resultIdx_iff wf idx e q n k).1 h).2)]
    · intro h; exact absurd (Finset.mem_univ k) h
  · rw [if_neg hs]
    refine Finset.sum_eq_zero fun q _ => ?_
    rw [if_neg (fun h => hs ((rows_resultIdx_iff wf idx e q n k).1 h).1)]

/-- THE ENTRIES LAYOUT AT `n`: the operand's entry plus the sum of the updates of the edges whose segment is `n`. -/
theorem entries_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (entriesDims N E wf) x idx upd (ix1 n)
      = x (ix1 n) + ∑ e ∈ Finset.univ.filter (fun e : Fin E => seg idx e = (n.val : Int)), upd (ix1 e) := by
  unfold Ideal.hostScatterAdd
  congr 1
  rw [Finset.sum_filter, Finset.sum_filter, ← Equiv.sum_comp (idxEquiv1 (n := E)).symm]
  refine Finset.sum_congr rfl fun e _ => ?_
  show (if (entriesDims N E wf).resultIdx? (ix1 e) idx = some (ix1 n) then upd (ix1 e) else 0) = _
  by_cases hs : seg idx e = (n.val : Int)
  · rw [if_pos hs, if_pos ((entries_resultIdx_iff wf idx e n).2 hs)]
  · rw [if_neg hs, if_neg (fun h => hs ((entries_resultIdx_iff wf idx e n).1 h))]

/-! ## Subtracting reals under a finite sum -/

/-- On the extended reals, a finite sum of differences `g e - w e` with every `w e` REAL is the difference of the
    sums. (With infinite `w` it is false: `(0 - ⊥) + (0 - ⊤) = ⊥` while `(0 + 0) - (⊥ + ⊤) = ⊤`.) -/
theorem sum_sub_coe {ι : Type*} (s : Finset ι) (g : ι → EReal) (w : ι → ℝ) :
    ∑ e ∈ s, (g e - (w e : EReal)) = ∑ e ∈ s, g e - ∑ e ∈ s, (w e : EReal) := by
  classical
  have hw : ∀ s : Finset ι, ∑ e ∈ s, (w e : EReal) = ((∑ e ∈ s, w e : ℝ) : EReal) := by
    intro s
    induction s using Finset.induction_on with
    | empty => simp
    | insert a s ha ih => rw [Finset.sum_insert ha, Finset.sum_insert ha, ih, EReal.coe_add]
  rw [hw s]
  clear hw
  induction s using Finset.induction_on with
  | empty => simp
  | insert a s ha ih =>
    rw [Finset.sum_insert ha, Finset.sum_insert ha, Finset.sum_insert ha, ih, EReal.coe_add,
      sub_eq_add_neg, sub_eq_add_neg, sub_eq_add_neg, ← EReal.coe_add, ← EReal.coe_neg, ← EReal.coe_neg, ← EReal.coe_neg,
      neg_add, EReal.coe_add, add_add_add_comm]

/-! ## The segment sum of differences -/

/-- SUBTRACTING A REAL PER-EDGE WEIGHT COMMUTES WITH THE SEGMENT SUM. Scatter-adding, into zeros, update rows
    `u e k = u' e k − r e` (`r e` real) gives at `(n, k)` the scatter-add of the rows `u'` at `(n, k)` less the
    scatter-add of the weights `r` at `n`: all three sums run over the edges whose segment is `n`. -/
theorem segment_sum_sub {N E D w : Nat}
    (wf2 : ScatterDims.WF ⟨2, ![N, D]⟩ ⟨2, ![E, 1]⟩ ⟨2, ![E, D]⟩ [1] [0] [0] 1)
    (wf1 : ScatterDims.WF ⟨1, ![N]⟩ ⟨2, ![E, 1]⟩ ⟨1, ![E]⟩ [] [0] [0] 1)
    (z z' : (⟨2, ![N, D]⟩ : Shape).Idx → EReal) (z₁ : (⟨1, ![N]⟩ : Shape).Idx → EReal) (idx : IVec ⟨2, ![E, 1]⟩ w)
    (u u' : (⟨2, ![E, D]⟩ : Shape).Idx → EReal) (v : (⟨1, ![E]⟩ : Shape).Idx → EReal) (r : Fin E → ℝ)
    (n : Fin N) (k : Fin D)
    (hz : z (ix2 n k) = 0) (hz' : z' (ix2 n k) = 0) (hz₁ : z₁ (ix1 n) = 0)
    (hv : ∀ e, v (ix1 e) = (r e : EReal)) (hu : ∀ e, u (ix2 e k) = u' (ix2 e k) - (r e : EReal)) :
    Ideal.hostScatterAdd (rowsDims N E D wf2) z idx u (ix2 n k)
      = Ideal.hostScatterAdd (rowsDims N E D wf2) z' idx u' (ix2 n k)
        - Ideal.hostScatterAdd (entriesDims N E wf1) z₁ idx v (ix1 n) := by
  rw [rows_apply, rows_apply, entries_apply, hz, hz', hz₁, zero_add, zero_add, zero_add,
    Finset.sum_congr rfl (fun e _ => hu e), Finset.sum_congr rfl (fun e _ => hv e)]
  exact sum_sub_coe _ _ _

end Cert.SegmentSum

end
-- ==== Proof.LibGatherRows.lean ====
/-
  A gather of whole rows, read at an entry.

  `x[ids]` of a table `x : [N, D]` at a column of row numbers `ids : [E, 1]` lowers to a `stablehlo.gather` with offset
  axis 1, collapsed axis 0, start index map `[0]`, index vector axis 1 and slice sizes `[1, D]`. Entry `(e, q)` of the
  result is the table at row `ids[e]` — read signed and clamped into `[0, N − 1]`, as the gather clamps every start
  index — and column `q`. The row depends on the edge `e` alone, never on the column `q`.
-/
import Idealize.ShloMosaic.PureOps.Ideal
import Idealize.ShloMosaic.Lib.ValueIdx

noncomputable section

namespace Cert.GatherRows

open Idealize.ShloMosaic Idealize.ShloMosaic.ValueIdx

/-- Those dimension numbers for a table `[N, D]`, row numbers `[E, 1]` and a result `[E, D]`. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The table row edge `e` reads: its row number, read signed and clamped into the table. -/
def rowOf {N E w : Nat} (hN : 0 < N) (idx : IVec ⟨2, ![E, 1]⟩ w) (e : Fin E) : Fin N :=
  ⟨min (idx (ix2 e (0 : Fin 1))).toInt.toNat (N - 1), by omega⟩

variable {α : Type}

/-- THE GATHER READ AT `(e, q)`: the table at the clamped row of edge `e` and column `q`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowsDims N E D wf) x idx (ix2 e q) = x (ix2 (rowOf hN idx e) q) := by
  have hs0 : (rowsDims N E D wf).start (ix2 e q) idx 0 = (rowOf hN idx e).val := by
    unfold GatherDims.start
    rw [dif_pos (show (0 : Fin 2) ∈ (rowsDims N E D wf).startIndexMap from List.mem_singleton.mpr rfl)]
    have hsi : (rowsDims N E D wf).siIdx (ix2 e q) ⟨List.idxOf (0 : Fin 2) (rowsDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have ho0 : (rowsDims N E D wf).offCoord (ix2 e q) 0 = 0 :=
    GatherDims.offCoord_eq_zero _ _ _ (fun h => ((GatherDims.mem_sKept _ _).mp h).1 (List.mem_singleton.mpr rfl))
  have hs1 : (rowsDims N E D wf).start (ix2 e q) idx 1 = 0 := by
    unfold GatherDims.start
    rw [dif_neg (show ¬ (1 : Fin 2) ∈ (rowsDims N E D wf).startIndexMap by
      show ¬ (1 : Fin 2) ∈ [(0 : Fin 2)]; decide)]
  have ho1 : (rowsDims N E D wf).offCoord (ix2 e q) 1 = q.val := by
    unfold GatherDims.offCoord
    rw [dif_pos (show (1 : Fin 2) ∈ (rowsDims N E D wf).sKept by
      show (1 : Fin 2) ∈ (List.finRange 2).filter (fun a => a ∉ ([(0 : Fin 2)] ++ [])); decide)]
    rfl
  unfold Host.gather
  congr 1
  funext a
  refine Fin.ext ?_
  match a with
  | ⟨0, _⟩ =>
    show (rowsDims N E D wf).start (ix2 e q) idx 0 + (rowsDims N E D wf).batchCoord (ix2 e q) 0
      + (rowsDims N E D wf).offCoord (ix2 e q) 0 = (rowOf hN idx e).val
    rw [GatherDims.batchCoord_eq_zero _ _ _ List.not_mem_nil, hs0, ho0]
    rfl
  | ⟨1, _⟩ =>
    show (rowsDims N E D wf).start (ix2 e q) idx 1 + (rowsDims N E D wf).batchCoord (ix2 e q) 1
      + (rowsDims N E D wf).offCoord (ix2 e q) 1 = q.val
    rw [GatherDims.batchCoord_eq_zero _ _ _ List.not_mem_nil, hs1, ho1]
    omega

end Cert.GatherRows

end
-- ==== Proof.AggregationStages.lean ====
/-
  The stages the two aggregations are read through, each at an entry.

  The kernel's last stages as one function of the table its region left (`kernelSide`), with its entry read one layer at
  a time (true of any float arithmetic, not only the exact one); and, at the exact instance, the
  scatter-add by row number at an entry (the operand plus the sum over the edges into that node), the gather by column
  number at an entry (the table at the edge's clamped node, same feature), and the zero table.
-/
import proofs.«131494_j36275293782355_2_alg».proof.Proof.Gen.ReferenceIdeal.Read
import proofs.«131494_j36275293782355_2_alg».proof.Proof.LibSegmentSum
import proofs.«131494_j36275293782355_2_alg».proof.Proof.LibGatherRows
import Idealize.ShloMosaic.Lib.ValueIdx
import Idealize.ShloMosaic.PureOps.Ideal.Laws

set_option maxRecDepth 16384

noncomputable section

open scoped BigOperators

namespace Cert.ReferenceIdeal.Aggregation

open Cert.ReferenceIdeal Cert.ReferenceIdeal.Gen Cert.ReferenceIdeal.Read Idealize.ShloMosaic Idealize.ShloMosaic.ValueIdx

section Generic
variable {F : FTy → Type} [FloatOps F]

/-- The kernel's last stages as a function of the table `xw` its region left (in the narrow float format, widened
    after the gather) and of the arguments: the messages `w e · xw(c e, ·)` scatter-added by row number into zeros, plus
    the bias along every row. -/
def kernelSide (xw : FVec F S100000x128 .bf16) (x1 x2 : IVec S1600000 32) (x3 : FVec F S1600000 .f32)
    (x5 : FVec F S128 .f32) : FVec F S100000x128 .f32 :=
  addf
    (Host.scatterAdd scatter_S100000x128_S1600000x1_S1600000x128_1_0_0_1 (val_main_v36 (F := F)) (val_main_v37 (F := F) x1)
      (mulf (val_main_v34 (F := F) x1 x2 x3)
        (extf .f32 (Host.gather gather_S100000x128_S1600000x1_S1600000x128_1_0_n_n_0_1_1128 xw (val_main_v32 (F := F) x2))
          (by decide))))
    (val_main_v41 (F := F) x5)

/-- The kernel's last stages at an entry: the scatter-added messages' entry plus the bias's. -/
theorem kernelSide_apply (xw : FVec F S100000x128 .bf16) (x1 x2 : IVec S1600000 32) (x3 : FVec F S1600000 .f32)
    (x5 : FVec F S128 .f32) (i : S100000x128.Idx) :
    kernelSide xw x1 x2 x3 x5 i
      = FloatOps.addf
          (Host.scatterAdd scatter_S100000x128_S1600000x1_S1600000x128_1_0_0_1 (val_main_v36 (F := F)) (val_main_v37 (F := F) x1)
            (mulf (val_main_v34 (F := F) x1 x2 x3)
              (extf .f32 (Host.gather gather_S100000x128_S1600000x1_S1600000x128_1_0_n_n_0_1_1128 xw (val_main_v32 (F := F) x2))
                (by decide))) i)
          (val_main_v41 (F := F) x5 i) := rfl

/-- The messages at an entry: the weight's entry times the gathered table's, widened. -/
theorem messages_apply (xw : FVec F S100000x128 .bf16) (x1 x2 : IVec S1600000 32) (x3 : FVec F S1600000 .f32)
    (i : S1600000x128.Idx) :
    mulf (val_main_v34 (F := F) x1 x2 x3)
        (extf .f32 (Host.gather gather_S100000x128_S1600000x1_S1600000x128_1_0_n_n_0_1_1128 xw (val_main_v32 (F := F) x2))
          (by decide)) i
      = FloatOps.mulf (val_main_v34 (F := F) x1 x2 x3 i)
          (FloatOps.extf .f32 (by decide)
            (Host.gather gather_S100000x128_S1600000x1_S1600000x128_1_0_n_n_0_1_1128 xw (val_main_v32 (F := F) x2) i)) := rfl

end Generic

/-- The scatter-add by row number at an entry: the operand plus the sum over the edges into that node. -/
theorem scatter_rows (x : FVec Ideal S100000x128 .f32) (idx : IVec S1600000x1 32)
    (upd : FVec Ideal S1600000x128 .f32) (n : Fin 100000) (k : Fin 128) :
    Host.scatterAdd (F := Ideal) (φ := .f32) scatter_S100000x128_S1600000x1_S1600000x128_1_0_0_1 x idx upd (ix2 n k)
      = x (ix2 n k) + ∑ e ∈ Finset.univ.filter (fun e : Fin 1600000 => Cert.SegmentSum.seg idx e = (n.val : Int)), upd (ix2 e k) :=
  Cert.SegmentSum.rows_apply scatter_S100000x128_S1600000x1_S1600000x128_1_0_0_1_wf x idx upd n k

/-- The gather by column number at an entry: the table at the clamped node of the edge, same feature. -/
theorem gather_rows {α : Type} (x : S100000x128.Idx → α) (idx : IVec S1600000x1 32)
    (e : Fin 1600000) (q : Fin 128) :
    Host.gather gather_S100000x128_S1600000x1_S1600000x128_1_0_n_n_0_1_1128 x idx (ix2 e q)
      = x (ix2 (Cert.GatherRows.rowOf (N := 100000) (by decide) idx e) q) :=
  Cert.GatherRows.gather_rows_apply (by decide) gather_S100000x128_S1600000x1_S1600000x128_1_0_n_n_0_1_1128_wf x idx e q

theorem zeros_apply (i : S100000x128.Idx) : val_main_v36 (F := Ideal) i = 0 := by
  rw [val_main_v36_apply, val_main_cst_9_apply]; exact Ideal.ofBits_zero_f32

end Cert.ReferenceIdeal.Aggregation

end
-- ==== Proof.RealOps.lean ====
/-
  Real numbers are kept by the operations the edge weights are built from.

  For any shapes: a finite float literal is a real; the exact scatter-add of real updates into a real operand is real at
  every entry (an entry is the operand's plus a finite sum of updates); a gather of a real table is real at every entry
  (a gather only picks entries of the table); and the exact sum, product and power of two reals are reals.
-/
import proofs.«131494_j36275293782355_2_alg».proof.Proof.RealSums
import Idealize.ShloMosaic.PureOps.Ideal

noncomputable section

open scoped BigOperators

namespace Cert.RealOps

open Idealize.ShloMosaic Cert.RealSums

/-- A float pattern whose exponent field is not all ones denotes a real number. -/
theorem isReal_ieee {w : Nat} (e m : Nat) (b : BitVec w) (h : (b.extractLsb' m e).toNat ≠ 2 ^ e - 1) :
    IsReal (Ideal.ieee e m b) := by
  unfold Ideal.ieee
  dsimp only
  rw [if_neg h]
  split <;> exact ⟨_, rfl⟩

/-- The three f32 literals of the weights: zero, ε and -1/2. -/
theorem isReal_zero_f32 : IsReal (FloatOps.ofBits (F := Ideal) .f32 0x00000000#32) := by
  show IsReal (Ideal.ieee 8 23 (0x00000000#32 : BitVec 32)); exact isReal_ieee 8 23 (0x00000000#32 : BitVec 32) (by decide)
theorem isReal_eps_f32 : IsReal (FloatOps.ofBits (F := Ideal) .f32 0x3727C5AC#32) := by
  show IsReal (Ideal.ieee 8 23 (0x3727C5AC#32 : BitVec 32)); exact isReal_ieee 8 23 (0x3727C5AC#32 : BitVec 32) (by decide)
theorem isReal_neg_half_f32 : IsReal (FloatOps.ofBits (F := Ideal) .f32 0xBF000000#32) := by
  show IsReal (Ideal.ieee 8 23 (0xBF000000#32 : BitVec 32)); exact isReal_ieee 8 23 (0xBF000000#32 : BitVec 32) (by decide)

/-- An exact scatter-add of real updates into a real operand is real at every entry. -/
theorem isReal_scatterAdd {s si su : Shape} {φ : FTy} (d : ScatterDims s si su) {w : Nat} (x : FVec Ideal s φ) (idx : IVec si w)
    (upd : FVec Ideal su φ) (hx : ∀ i, IsReal (x i)) (hu : ∀ j, IsReal (upd j)) (i : s.Idx) :
    IsReal (Host.scatterAdd (F := Ideal) d x idx upd i) := by
  show IsReal (x i + ∑ j ∈ Finset.univ.filter (fun j => d.resultIdx? j idx = some i), upd j)
  exact (hx i).add (isReal_sum _ _ fun j _ => hu j)

/-- A gather of a real table is real at every entry. -/
theorem isReal_gather {s si t : Shape} (d : GatherDims s si t) {w : Nat} (x : s.Idx → EReal) (idx : IVec si w)
    (hx : ∀ i, IsReal (x i)) (j : t.Idx) : IsReal (Host.gather d x idx j) :=
  hx _

theorem isReal_addf {x y : EReal} (hx : IsReal x) (hy : IsReal y) : IsReal (FloatOps.addf (F := Ideal) (φ := .f32) x y) := hx.add hy
theorem isReal_mulf {x y : EReal} (hx : IsReal x) (hy : IsReal y) : IsReal (FloatOps.mulf (F := Ideal) (φ := .f32) x y) := hx.mul hy
theorem isReal_hostPowf {x y : EReal} (hx : IsReal x) (hy : IsReal y) : IsReal (FloatOps.hostPowf (F := Ideal) (φ := .f32) x y) := hx.pow hy

end Cert.RealOps

end
-- ==== Proof.EdgeWeights.lean ====
/-
  The edge weights are real numbers.

  Both programs weigh edge `e` by `dis[row e] · adj e · dis[col e]`, where `dis n = (deg' n + ε)^(-1/2)`, `deg' n` is the
  sum `deg n` of the adjacency values of the edges into `n` unless that sum is zero (then `ε`), and `ε` and `-1/2` are
  finite float literals. When every adjacency value is a real number so is every degree (a finite sum of reals), every
  `deg' n + ε`, every power (the exact power of a real base to a real exponent is the real power — also at a zero or
  negative base, where it is a junk REAL, never an infinity), every gathered entry (a gather only picks entries), and so
  every weight. This is what lets the weight be moved through the inner product.
-/
import proofs.«131494_j36275293782355_2_alg».proof.Proof.Gen.ReferenceIdeal.Read
import proofs.«131494_j36275293782355_2_alg».proof.Proof.RealSums
import proofs.«131494_j36275293782355_2_alg».proof.Proof.RealOps

noncomputable section

namespace Cert.ReferenceIdeal.EdgeWeights

open Cert.ReferenceIdeal Cert.ReferenceIdeal.Gen Cert.ReferenceIdeal.Read Idealize.ShloMosaic Cert.RealSums Cert.RealOps

variable (x1 x2 : (⟨S1600000, .i32⟩ : BufTy).Contents (Elt Ideal)) (x3 : (⟨S1600000, .f32⟩ : BufTy).Contents (Elt Ideal))

theorem real_v0 (i : S100000.Idx) : IsReal (val_main_v0 (F := Ideal) i) := by
  rw [val_main_v0_apply, val_main_cst_apply]; exact isReal_zero_f32

/-- The degrees. -/
theorem real_v2 (h3 : ∀ i, IsReal (x3 i)) (i : S100000.Idx) : IsReal (val_main_v2 (F := Ideal) x1 x3 i) := by
  unfold val_main_v2
  exact isReal_scatterAdd _ _ _ _ real_v0 h3 i

theorem real_call0_v1 (i : S100000.Idx) : IsReal (val_main_call0_v1 (F := Ideal) i) := by
  rw [val_main_call0_v1_apply, val_main_call0_v0_apply, val_main_cst_1_apply]; exact isReal_eps_f32

/-- The degrees with the zeros replaced by ε. -/
theorem real_v5 (h3 : ∀ i, IsReal (x3 i)) (i : S100000.Idx) : IsReal (val_main_v5 (F := Ideal) x1 x3 i) := by
  rw [val_main_v5_apply]
  unfold Scalar.select
  split
  · exact real_call0_v1 i
  · exact real_v2 x1 x3 h3 i

theorem real_v6 (i : S100000.Idx) : IsReal (val_main_v6 (F := Ideal) i) := by
  rw [val_main_v6_apply, val_main_cst_2_apply]; exact isReal_eps_f32

theorem real_v7 (h3 : ∀ i, IsReal (x3 i)) (i : S100000.Idx) : IsReal (val_main_v7 (F := Ideal) x1 x3 i) := by
  rw [val_main_v7_apply]
  exact isReal_addf (real_v5 x1 x3 h3 i) (real_v6 i)

theorem real_v8 (i : S100000.Idx) : IsReal (val_main_v8 (F := Ideal) i) := by
  rw [val_main_v8_apply, val_main_cst_3_apply]; exact isReal_neg_half_f32

/-- The inverse square roots of the degrees. -/
theorem real_v9 (h3 : ∀ i, IsReal (x3 i)) (i : S100000.Idx) : IsReal (val_main_v9 (F := Ideal) x1 x3 i) := by
  rw [val_main_v9_apply]
  exact isReal_hostPowf (real_v7 x1 x3 h3 i) (real_v8 i)

/-- Gathered at the row ends, -/
theorem real_v16 (h3 : ∀ i, IsReal (x3 i)) (i : S1600000.Idx) : IsReal (val_main_v16 (F := Ideal) x1 x3 i) := by
  unfold val_main_v16
  exact isReal_gather _ _ _ (real_v9 x1 x3 h3) i

theorem real_v17 (h3 : ∀ i, IsReal (x3 i)) (i : S1600000.Idx) : IsReal (val_main_v17 (F := Ideal) x1 x3 i) := by
  rw [val_main_v17_apply]
  exact isReal_mulf (real_v16 x1 x3 h3 i) (h3 i)

/-- and at the column ends. -/
theorem real_v24 (h3 : ∀ i, IsReal (x3 i)) (i : S1600000.Idx) : IsReal (val_main_v24 (F := Ideal) x1 x2 x3 i) := by
  unfold val_main_v24
  exact isReal_gather _ _ _ (real_v9 x1 x3 h3) i

/-- The weights. -/
theorem real_v25 (h3 : ∀ i, IsReal (x3 i)) (i : S1600000.Idx) : IsReal (val_main_v25 (F := Ideal) x1 x2 x3 i) := by
  rw [val_main_v25_apply]
  exact isReal_mulf (real_v17 x1 x3 h3 i) (real_v24 x1 x2 x3 h3 i)

/-- The weights as a column. -/
theorem real_v26 (h3 : ∀ i, IsReal (x3 i)) (i : S1600000x1.Idx) : IsReal (val_main_v26 (F := Ideal) x1 x2 x3 i) := by
  rw [val_main_v26_apply]; exact real_v25 x1 x2 x3 h3 _

/-- The weight laid along the features does not depend on the feature: it is the column's entry of that edge. -/
theorem v34_eq (e : Fin 1600000) (q : Fin 128) :
    val_main_v34 (F := Ideal) x1 x2 x3 (ValueIdx.ix2 e q) = val_main_v26 (F := Ideal) x1 x2 x3 (ValueIdx.ix2 e (0 : Fin 1)) := by
  rw [val_main_v34_apply]
  refine congrArg _ (funext fun a => Fin.ext ?_)
  match a with
  | ⟨0, _⟩ => rfl
  | ⟨1, _⟩ => rfl

end Cert.ReferenceIdeal.EdgeWeights

end
-- ==== Proof.Aggregation.lean ====
/-
  The two aggregations agree.

  Write `S n` for the edges whose row number is `n` (out-of-range row numbers name no node and are dropped), `w e` for
  the weight of edge `e`, `c e` for the node its column number names (clamped into the table), `x` for the node table
  and `W` for the weight matrix. Reading both programs' last stages at entry `(n, d)`:

      kernel     (0 + ∑ e ∈ S n, w e · (x·W)(c e, d)) + bias d        — messages over the PRODUCT table, then summed
      reference  (∑ k, (0 + ∑ e ∈ S n, w e · x(c e, k)) · W(k, d)) + bias d   — messages summed, then the product

  With `(x·W)(c, d) = ∑ k, x(c, k) · W(k, d)` these are equal when every `w e`, every entry of `x` and every entry of `W`
  is a real number (`weighted_inner_comm`): the weight moves through the inner product, and the two finite sums swap.
  The weights, the row numbers, the column numbers, the zero tables and the broadcast bias are the SAME stages in both
  programs, so they are named once (the reference's stage functions) and never opened here beyond their being real.
-/
import proofs.«131494_j36275293782355_2_alg».proof.Proof.AggregationStages
import proofs.«131494_j36275293782355_2_alg».proof.Proof.RealSums
import proofs.«131494_j36275293782355_2_alg».proof.Proof.EdgeWeights

set_option maxRecDepth 16384

noncomputable section

open scoped BigOperators

namespace Cert.ReferenceIdeal.Aggregation

open Cert.ReferenceIdeal Cert.ReferenceIdeal.Gen Cert.ReferenceIdeal.Read Idealize.ShloMosaic Idealize.ShloMosaic.ValueIdx
open Cert.RealSums Cert.ReferenceIdeal.EdgeWeights

/-- THE BRIDGE. With the region's table the product of the node table with the weights, and every adjacency value, table
    entry and weight entry a real number, the kernel's last stages and the reference's final stage are one array. -/
theorem kernelSide_eq (xw : FVec Ideal S100000x128 .bf16) (x0 : FVec Ideal S100000x128 .f32)
    (x1 x2 : IVec S1600000 32) (x3 : FVec Ideal S1600000 .f32)
    (x4 : FVec Ideal S128x128 .f32) (x5 : FVec Ideal S128 .f32)
    (hxw : ∀ (n : Fin 100000) (d : Fin 128), xw (ix2 n d) = ∑ k : Fin 128, x0 (ix2 n k) * x4 (ix2 k d))
    (h0 : ∀ i, IsReal (x0 i)) (h3 : ∀ i, IsReal (x3 i)) (h4 : ∀ i, IsReal (x4 i)) :
    kernelSide (F := Ideal) xw x1 x2 x3 x5 = val_main_v42 (F := Ideal) x0 x1 x2 x3 x4 x5 := by
  funext i
  obtain ⟨n, d, rfl⟩ : ∃ (n : Fin 100000) (d : Fin 128), i = ix2 n d := ⟨i 0, i 1, eq_ix2 i⟩
  rw [val_main_v42_apply, val_main_v39_apply, kernelSide_apply]
  have hl : ∀ k : Fin 128, lidx_main_v39 (ix2 n d) k = ix2 n k := fun k => funext fun a => Fin.ext (by
    match a with
    | ⟨0, _⟩ => rfl
    | ⟨1, _⟩ => rfl)
  have hr : ∀ k : Fin 128, ridx_main_v39 (ix2 n d) k = ix2 k d := fun k => funext fun a => Fin.ext (by
    match a with
    | ⟨0, _⟩ => rfl
    | ⟨1, _⟩ => rfl)
  -- the reference's scatter-add at (n, k): the weighted sum of the gathered rows' entries
  have hR : ∀ k : Fin 128, val_main_v38 (F := Ideal) x0 x1 x2 x3 (ix2 n k)
      = ∑ e ∈ Finset.univ.filter (fun e : Fin 1600000 => Cert.SegmentSum.seg (val_main_v37 (F := Ideal) x1) e = (n.val : Int)),
          val_main_v26 (F := Ideal) x1 x2 x3 (ix2 e (0 : Fin 1))
            * x0 (ix2 (Cert.GatherRows.rowOf (N := 100000) (by decide) (val_main_v32 (F := Ideal) x2) e) k) := by
    intro k
    unfold val_main_v38
    rw [scatter_rows, zeros_apply, zero_add]
    refine Finset.sum_congr rfl fun e _ => ?_
    rw [val_main_v35_apply, v34_eq, Ideal.mulf_def]
    unfold val_main_v33
    rw [gather_rows]
  -- the kernel's message of edge e at feature d: the weight times the inner product of the gathered row with column d
  have hK : ∀ e : Fin 1600000, mulf (F := Ideal) (φ := .f32) (val_main_v34 (F := Ideal) x1 x2 x3)
        (extf .f32 (Host.gather gather_S100000x128_S1600000x1_S1600000x128_1_0_n_n_0_1_1128 xw (val_main_v32 (F := Ideal) x2))
          (by decide)) (ix2 e d)
      = val_main_v26 (F := Ideal) x1 x2 x3 (ix2 e (0 : Fin 1))
          * ∑ k : Fin 128, x0 (ix2 (Cert.GatherRows.rowOf (N := 100000) (by decide) (val_main_v32 (F := Ideal) x2) e) k) * x4 (ix2 k d) := by
    intro e
    rw [messages_apply, Ideal.mulf_def, Ideal.extf_def, v34_eq, gather_rows, hxw]
  rw [scatter_rows, zeros_apply, zero_add, Finset.sum_congr rfl (fun e _ => hK e)]
  simp only [hl, hr, hR]
  rw [weighted_inner_comm _ (fun e => val_main_v26 (F := Ideal) x1 x2 x3 (ix2 e (0 : Fin 1)))
    (fun e k => x0 (ix2 (Cert.GatherRows.rowOf (N := 100000) (by decide) (val_main_v32 (F := Ideal) x2) e) k))
    (fun k => x4 (ix2 k d)) (fun e => real_v26 x1 x2 x3 h3 _) (fun e k => h0 _) (fun k => h4 _)]

end Cert.ReferenceIdeal.Aggregation

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.NodeProduct.lean ====
/-
  What the kernel's region leaves in its output array: the product of the node table with the weight matrix.

  The region walks the 100000 rows of the node table in ten blocks of 10000 rows. At a point it loads a block of rows and
  the whole 128 x 128 weight matrix, and stores their matrix product (the changes of float format around it are the
  identity on exact values). So the entry `(p, q)` of the block written back at point `t` is the inner product of row
  `10000 t + p` of the table with column `q` of the weights — block `t` of ONE whole-array function, `product` — and the
  ten blocks cover the array.
-/
import proofs.«131494_j36275293782355_2_alg».proof.Proof.Gen.KernelIdeal.Frame
import proofs.«131494_j36275293782355_2_alg».proof.Proof.LibMatmulPlain
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.NodeProduct

open Cert.KernelIdeal Cert.KernelIdeal.Gen Idealize.ShloMosaic Idealize.ShloMosaic.TcCoe Idealize.ShloMosaic.ValueIdx
open Idealize.SL.Sem Idealize.ShloMosaic.Pipeline

/-- The product of a node table with a weight matrix, entry by entry: row `i 0` of the table against column `i 1`. -/
def product (x : S100000x128.Idx → EReal) (W : S128x128.Idx → EReal) : S100000x128.Idx → EReal :=
  fun i => ∑ k : Fin 128, x (ix2 (⟨(i 0).val, idx2_lt0 i⟩ : Fin 100000) k) * W (ix2 k (⟨(i 1).val, idx2_lt1 i⟩ : Fin 128))

theorem product_apply (x : S100000x128.Idx → EReal) (W : S128x128.Idx → EReal) (n : Fin 100000) (d : Fin 128) :
    product x W (ix2 n d) = ∑ k : Fin 128, x (ix2 n k) * W (ix2 k d) := rfl

/-- The body's stored value at entry `(p, q)` of its block: the inner product of the loaded rows' row `p` with the
    loaded weights' column `q`. -/
theorem payload_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  exact Cert.LibMatmulPlain.matmul_plain_zero_apply (φ₁ := .bf16) (φ₂ := .bf16) none x0 x1 p q

/-! ## From the ten blocks to the array -/

variable (m : (ℓ : Loc nD τ sig) → Buf (Elt Ideal) ℓ)

theorem origin_zero : (![0, 0] : Fin 2 → Nat) = fun _ => 0 := funext fun a => by fin_cases a <;> rfl

/-- The printed index maps over the ten points: the rows' block and the output's block are block `t` along the rows,
    the weights' block is the whole matrix. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of block `t` is row `10000 t + p` of the table. -/
def rowAt (t : Fin cfg0.N) (p : Fin 10000) : Fin 100000 :=
  ⟨t.val * 10000 + p.val, by have h : t.val < grid0.N := t.isLt; rw [N_0] at h; have := p.isLt; omega⟩

theorem emb_rows (t : Fin cfg0.N) (p : Fin 10000) (k : Fin 128) :
    ((cfg0.win 0).blk t).view.emb (ix2 p k) = ix2 (rowAt t p) k := by
  obtain ⟨e0, e1, e2, e3, e4, e5⟩ := block_indices t
  funext a; apply Fin.ext
  match a with
  | ⟨0, _⟩ => show win0_0.index t (0 : Fin 2) * 10000 + 1 * p.val = t.val * 10000 + p.val; omega
  | ⟨1, _⟩ => show win0_0.index t (1 : Fin 2) * 128 + 1 * k.val = k.val; omega

theorem emb_weights (t : Fin cfg0.N) (k : Fin 128) (q : Fin 128) :
    ((cfg0.win 1).blk t).view.emb (ix2 k q) = ix2 k q := by
  obtain ⟨e0, e1, e2, e3, e4, e5⟩ := block_indices t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

theorem emb_out (t : Fin cfg0.N) (p : Fin 10000) (q : Fin 128) :
    ((cfg0.win 2).blk t).view.emb (ix2 p q) = ix2 (rowAt t p) q := by
  obtain ⟨e0, e1, e2, e3, e4, e5⟩ := block_indices t
  funext a; apply Fin.ext
  match a with
  | ⟨0, _⟩ => show win0_2.index t (0 : Fin 2) * 10000 + 1 * p.val = t.val * 10000 + p.val; omega
  | ⟨1, _⟩ => show win0_2.index t (1 : Fin 2) * 128 + 1 * q.val = q.val; omega

/-- WHAT POINT `t` WRITES BACK is block `t` of the product of the table with the weights as the region finds them. -/
theorem flushed_eq (c : Dev nD) (t : Fin cfg0.N) :
    (dats (F := Ideal) m 0 c).flushed 2 t
      = ((cfg0.win 2).blk t).view.read (Elt Ideal) (product (V m c main_arg0) (V m c main_arg4)) := by
  show (cfg0.win 2).cut (grid0.coords t) ((dats m 0 c).after 2 t) = _
  rw [after0_2]
  unfold out0_2
  rw [View.canon_unit_zero origin_zero]
  simp only [View.ld_unit_zero (S := S10000x128) origin_zero, View.ld_unit_zero (S := S128x128) origin_zero]
  funext j
  obtain ⟨p, q, rfl⟩ : ∃ (p : Fin 10000) (q : Fin 128), j = ix2 p q := ⟨j 0, j 1, eq_ix2 j⟩
  show k0_pay1 (F := Ideal) (iblk m c 0 t) (iblk m c 1 t) (ix2 p q)
    = product (V m c main_arg0) (V m c main_arg4) (((cfg0.win 2).blk t).view.emb (ix2 p q))
  rw [emb_out t p q, product_apply]
  refine (payload_apply (iblk m c 0 t) (iblk m c 1 t) p q).trans ?_
  refine Finset.sum_congr rfl fun k _ => ?_
  have h0 : iblk m c 0 t (ix2 p k) = V m c main_arg0 (ix2 (rowAt t p) k) := by
    show V m c main_arg0 (((cfg0.win 0).blk t).view.emb (ix2 p k)) = _
    rw [emb_rows t p k]
  have h1 : iblk m c 1 t (ix2 k q) = V m c main_arg4 (ix2 k q) := by
    show V m c main_arg4 (((cfg0.win 1).blk t).view.emb (ix2 k q)) = _
    rw [emb_weights t k q]
  rw [h0, h1]

/-- An index of the array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v0).slice (win0_2.rect t)).set ↔ _
  rw [View.set_slice_whole, Rect.mem_set_unit]
  exact Iff.rfl

/-- Row `r` of the table lies in the block of point `r / 10000`: the ten blocks cover the array. -/
theorem blocks_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 10000 < cfg0.N := by show _ < grid0.N; rw [N_0]; omega
  obtain ⟨e0, e1, e2, e3, e4, e5⟩ := block_indices ⟨(i 0).val / 10000, ht⟩
  refine ⟨⟨(i 0).val / 10000, ht⟩, flush0_2 _, ?_⟩
  rw [mem_block]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 128 ≤ (i 1).val
      ∧ (i 1).val < win0_2.index ⟨(i 0).val / 10000, ht⟩ (1 : Fin 2) * 128 + 128
    rw [e5]; omega

/-- THE ARRAY after the region: the product of the node table with the weight matrix. -/
theorem final (c : Dev nD) :
    (dats (F := Ideal) m 0 c).arrAt 2 cfg0.N = product (V m c main_arg0) (V m c main_arg4) :=
  (dats m 0 c).arrAt_eq_of_cover 2 _ (fun t _ => flushed_eq m c t) blocks_cover

end Cert.KernelIdeal.NodeProduct

end
-- ==== Proof.Tail.lean ====
/-
  The kernel's run, read: its result array as a function of the arguments.

  After the region the program runs fifty-seven host operations: the degrees, their inverse square roots, the edge weights,
  the gather of the region's table at the column numbers, the messages, their scatter-add by row number, the bias. The
  frame run states the result buffer as those operations applied to the memory the region leaves — the region's table
  where its output array is, the arguments where they were. Those operations are, stage for stage, the ones the
  aggregation module names, and the region's table is the product of the node table with the weight matrix.
-/
import proofs.«131494_j36275293782355_2_alg».proof.Proof.Gen.KernelIdeal.Frame
import proofs.«131494_j36275293782355_2_alg».proof.Proof.NodeProduct
import proofs.«131494_j36275293782355_2_alg».proof.Proof.AggregationStages
import Idealize.ShloMosaic.Lib.StableHlo.Run

set_option maxRecDepth 16384

noncomputable section

namespace Cert.KernelIdeal.Tail

open Cert.KernelIdeal Cert.KernelIdeal.Gen Idealize.ShloMosaic Idealize.ShloMosaic.TcCoe Idealize.ShloMosaic.StableHlo
open Idealize.SL.Sem Idealize.ShloMosaic.Pipeline

section Generic
variable {F : FTy → Type} [FloatOps F] (m : (ℓ : Loc nD τ sig) → Buf (Elt F) ℓ)

/-- The memory the region leaves, read at its output array: the array after the last write-back. -/
theorem left_table (c : Dev nD) :
    Pipeline.withArrays spec0 c (V0 m c) (fun w => (dats (F := F) m 0 c).arrAt w cfg0.N) (Proc.devRef .tc main_v0)
      = (dats (F := F) m 0 c).arrAt 2 cfg0.N :=
  Pipeline.withArrays_arr spec0 launch0.win.arr_inj c _ _ 2

/-- and at an argument the region does not write: the argument. -/
theorem left_arg1 (c : Dev nD) :
    Pipeline.withArrays spec0 c (V0 m c) (fun w => (dats (F := F) m 0 c).arrAt w cfg0.N) (Proc.devRef .tc main_arg1)
      = m ((c : Thread nD τ).loc main_arg1) :=
  Pipeline.withArrays_of_ne _ c (V0 m c) _ main_arg1 (by exact (by decide : ∀ w, Pipeline.arrRef spec0 w ≠ main_arg1))
theorem left_arg2 (c : Dev nD) :
    Pipeline.withArrays spec0 c (V0 m c) (fun w => (dats (F := F) m 0 c).arrAt w cfg0.N) (Proc.devRef .tc main_arg2)
      = m ((c : Thread nD τ).loc main_arg2) :=
  Pipeline.withArrays_of_ne _ c (V0 m c) _ main_arg2 (by exact (by decide : ∀ w, Pipeline.arrRef spec0 w ≠ main_arg2))
theorem left_arg3 (c : Dev nD) :
    Pipeline.withArrays spec0 c (V0 m c) (fun w => (dats (F := F) m 0 c).arrAt w cfg0.N) (Proc.devRef .tc main_arg3)
      = m ((c : Thread nD τ).loc main_arg3) :=
  Pipeline.withArrays_of_ne _ c (V0 m c) _ main_arg3 (by exact (by decide : ∀ w, Pipeline.arrRef spec0 w ≠ main_arg3))
theorem left_arg5 (c : Dev nD) :
    Pipeline.withArrays spec0 c (V0 m c) (fun w => (dats (F := F) m 0 c).arrAt w cfg0.N) (Proc.devRef .tc main_arg5)
      = m ((c : Thread nD τ).loc main_arg5) :=
  Pipeline.withArrays_of_ne _ c (V0 m c) _ main_arg5 (by exact (by decide : ∀ w, Pipeline.arrRef spec0 w ≠ main_arg5))

set_option maxHeartbeats 4000000 in
/-- THE RESULT BUFFER after the host operations that follow the region: the aggregation over the region's table. -/
theorem result_eq (c : Dev nD) :
    Pipeline.afterTail₀ cfgs (dats (F := F) m) 0 (V0 m) [hostOps1, hostOps1_1, hostOps1_2] c main_v43
      = Cert.ReferenceIdeal.Aggregation.kernelSide (F := F) ((dats (F := F) m 0 c).arrAt 2 cfg0.N)
          (m ((c : Thread nD τ).loc main_arg1)) (m ((c : Thread nD τ).loc main_arg2)) (m ((c : Thread nD τ).loc main_arg3))
          (m ((c : Thread nD τ).loc main_arg5)) := by
  unfold Pipeline.afterTail₀
  simp only [hostOps1, hostOps1_1, hostOps1_2, List.flatten_cons, List.flatten_nil, List.append_nil, List.cons_append,
    List.nil_append]
  after_results_simp
  rw [left_table m c, left_arg1 m c, left_arg2 m c, left_arg3 m c, left_arg5 m c]
  rfl

end Generic

variable (m : (ℓ : Loc nD τ sig) → Buf (Elt Ideal) ℓ) (ρ : Dev nD → PrngReg)

/-- THE KERNEL'S RUN, READ: every weakly fair execution terminates with the result array at the aggregation over the
    product of the node table with the weight matrix, and the arguments as they were. -/
theorem run : θ_run defs (onTc (τ := τ) (main (F := Ideal))) ⟨m, fun _ => 0, ρ⟩ fun r => ∀ c : Dev nD,
      r.2.mem ((c.tc : Thread nD τ).loc main_v43)
        = Cert.ReferenceIdeal.Aggregation.kernelSide (F := Ideal)
            (NodeProduct.product (m ((c.tc : Thread nD τ).loc main_arg0)) (m ((c.tc : Thread nD τ).loc main_arg4)))
            (m ((c.tc : Thread nD τ).loc main_arg1)) (m ((c.tc : Thread nD τ).loc main_arg2))
            (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
      ((h c).2 main_v43 (Pipeline.mem_restRefs_of main_v43 (by decide) (by decide))).trans
        ((result_eq (F := Ideal) m c).trans (by rw [NodeProduct.final m c]; rfl)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c)⟩)
    (run_main m ρ)

end Cert.KernelIdeal.Tail

end
-- ==== Proof.lean ====
/-
  The certificate of the graph-convolution layer: the kernel's forward pass equals its reference on the extended reals.

  Both programs normalise a sparse adjacency by the inverse square roots of its row sums and aggregate neighbour features
  along the edges. The reference aggregates the raw features and multiplies by the weight matrix at the end; the kernel
  multiplies the node table by the weight matrix first (its one region, ten blocks of rows) and aggregates the products.
  Entry by entry both are
      ∑ over the edges e into node n of  w e · ∑ k, x(c e, k) · W(k, d)   (+ bias d),
  once the real weight `w e` is moved through the inner product — a step that needs every adjacency value, table entry
  and weight entry to be a real number, which is what the precondition says.

  The three frames are the generated ones (the reference's is its generated run with the result dropped); the
  idealization rewrote nothing, so `preserves` is trivial; `algebraic` puts the kernel's run (`Tail.run`) beside the
  reference's generated run and closes with `Aggregation.kernelSide_eq`.
-/
import proofs.«131494_j36275293782355_2_alg».proof.Defs
import proofs.«131494_j36275293782355_2_alg».proof.Proof.Gen.Kernel
import proofs.«131494_j36275293782355_2_alg».proof.Proof.Gen.Kernel.Skeleton
import proofs.«131494_j36275293782355_2_alg».proof.Proof.Gen.Kernel.Launch
import proofs.«131494_j36275293782355_2_alg».proof.Proof.Gen.Kernel.Points
import proofs.«131494_j36275293782355_2_alg».proof.Proof.Gen.Kernel.Frame
import proofs.«131494_j36275293782355_2_alg».proof.Proof.Gen.KernelIdeal
import proofs.«131494_j36275293782355_2_alg».proof.Proof.Gen.KernelIdeal.Skeleton
import proofs.«131494_j36275293782355_2_alg».proof.Proof.Gen.KernelIdeal.Launch
import proofs.«131494_j36275293782355_2_alg».proof.Proof.Gen.KernelIdeal.Points
import proofs.«131494_j36275293782355_2_alg».proof.Proof.Gen.KernelIdeal.Frame
import proofs.«131494_j36275293782355_2_alg».proof.Proof.Gen.ReferenceIdeal
import proofs.«131494_j36275293782355_2_alg».proof.Proof.Gen.Pre_finite_inputs
import proofs.«131494_j36275293782355_2_alg».proof.Proof.Gen.ReferenceIdeal.Run
import proofs.«131494_j36275293782355_2_alg».proof.Proof.Gen.ReferenceIdeal.Read
import proofs.«131494_j36275293782355_2_alg».proof.Proof.FiniteInputs
import proofs.«131494_j36275293782355_2_alg».proof.Proof.Aggregation
import proofs.«131494_j36275293782355_2_alg».proof.Proof.Tail
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs, from memories agreeing on the arguments, end with one result array: the kernel's
    aggregation over the product table is the reference's product of the aggregated features, the precondition making
    every number in sight real. -/
theorem algebraic : Cert.algebraic_KernelIdeal_ReferenceIdeal := by
  intro m ρ m' ρ' hpre hagree
  refine ⟨_, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  obtain ⟨h0, h3, h4⟩ := Cert.Pre_finite_inputs.Finite.reals_of_pre _ _ _ _ _ _ (hpre c)
  refine (Cert.ReferenceIdeal.Read.val_main_v42_eq _ _ _ _ _ _).trans ?_
  exact (Cert.ReferenceIdeal.Aggregation.kernelSide_eq _ _ _ _ _ _ _
    (fun n d => Cert.KernelIdeal.NodeProduct.product_apply _ _ n d) h0 h3 h4).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
